-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S20000x128 : Shape := ⟨2, ![20000, 128]⟩
abbrev S1700000x128 : Shape := ⟨2, ![1700000, 128]⟩
abbrev S1x128 : Shape := ⟨2, ![1, 128]⟩
abbrev S100000x64 : Shape := ⟨2, ![100000, 64]⟩
abbrev S20000x64 : Shape := ⟨2, ![20000, 64]⟩
abbrev S1700000x64 : Shape := ⟨2, ![1700000, 64]⟩
abbrev S1x64 : Shape := ⟨2, ![1, 64]⟩

abbrev nBuf : Space → Nat
  | .hbm => 93
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .bf16⟩
  | .hbm, ⟨47, _⟩ => ⟨S128x128, .bf16⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .bf16⟩
  | .hbm, ⟨72, _⟩ => ⟨S128x64, .bf16⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .local _ .vmem, ⟨0, _⟩ => ⟨S20000x128, .bf16⟩
  | .local _ .vmem, ⟨1, _⟩ => ⟨S20000x128, .bf16⟩
  | .local _ .vmem, ⟨2, _⟩ => ⟨S128x128, .bf16⟩
  | .local _ .vmem, ⟨3, _⟩ => ⟨S20000x128, .f32⟩
  | .local _ .vmem, ⟨4, _⟩ => ⟨S20000x128, .f32⟩
  | .local _ .vmem, ⟨5, _⟩ => ⟨S20000x128, .bf16⟩
  | .local _ .vmem, ⟨6, _⟩ => ⟨S20000x128, .bf16⟩
  | .local _ .vmem, ⟨7, _⟩ => ⟨S128x64, .bf16⟩
  | .local _ .vmem, ⟨8, _⟩ => ⟨S20000x64, .f32⟩
  | .local _ .vmem, ⟨9, _⟩ => ⟨S20000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bitsLt_bf16_f32 : FTy.bits .bf16 < FTy.bits .f32
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S20000x64_S20000x64_0_0 : ∀ a, (![0, 0] : Fin 2 → Nat) a + S20000x64.size a ≤ S20000x64.size a
  h_S20000x64 : 0 < S20000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x128_S128x128_S20000x128_1_0_0_1_n_n_wf : DotDims.WF S20000x128 S128x128 S20000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S20000x128_S128x64_S20000x64_1_0_0_1_n_n_wf : DotDims.WF S20000x128 S128x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .bf16 = 32 ∨ (Rect.block (s := S100000x128) S20000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x128.size a ≤ S100000x128.size a
  hwx0_2 : ∀ i : grid0.Coords, EltTy.bits .f32 = 32 ∨ (Rect.block (s := S100000x128) S20000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S100000x128.size a
  hwx1_0 : ∀ i : grid1.Coords, EltTy.bits .bf16 = 32 ∨ (Rect.block (s := S100000x128) S20000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S100000x64.size a
  hwx1_2 : ∀ i : grid1.Coords, EltTy.bits .f32 = 32 ∨ (Rect.block (s := S100000x64) S20000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v32) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S20000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program's run, read at every buffer.

  The program is five stretches of host operations around two matrix-product regions. Its buffer contents at the
  seven segment boundaries are a fold from the launch memory: a stretch applies its operations, a region replaces
  its three arrays by what its write-backs leave and keeps every other buffer. The frame certificate of the program
  runs the segments and reads the last boundary's contents only at the argument arrays. Here the same run is read at
  EVERY unscoped buffer: each ends at the last boundary's contents, so in particular the result buffer does.
-/
import proofs.«132681_j32744830665359_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    every unscoped buffer of every device ends at the last segment boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Hand

end
-- ==== Proof.Layers.lean ====
/-
  The host computation both programs share: a two-layer graph convolution around two matrix products.

  From the edge list `e` (two rows of 1 600 000 node numbers: sources and destinations) both programs build, by the
  same operations in the same order,
    * `srcRows e`, `dstRows e`: the edge list's two rows, each followed by the self loops `0, 1, …, 99 999`;
    * `wrapIdx r`: a row of node numbers with the negative ones moved up by the node count (the wrap-around of a
      negative index), as a column of index vectors;
    * `invSqrtDeg e`: the reciprocal square root of each node's in-degree (a scatter-add of ones over `dstRows e`);
    * `edgeNorm e`: per edge, the product of that quantity at the edge's source and at its destination;
  and each convolution layer takes a node-feature array `H`, gathers its rows at the sources, scales row `j` by
  `edgeNorm e j`, scatter-adds the rows into the destinations and adds the bias (`conv128` over 128 features,
  `conv64` over 64); `relu128` is the maximum with zero between the layers. The two programs differ only in how the
  array `H` entering each layer is produced, so these functions are never opened: the certificate proves the arrays
  entering them equal and applies the functions to both sides.
-/
import proofs.«132681_j32744830665359_1_alg».proof.Proof.Gen.ReferenceIdeal

noncomputable section

namespace Cert.Layers

open Cert.ReferenceIdeal Cert.ReferenceIdeal.Gen Idealize.ShloMosaic Idealize.ShloMosaic.TcCoe Idealize.SL.Sem

variable {F : FTy → Type} [FloatOps F]

/-- The edge list's source row followed by the self loops. -/
def srcRows (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge list's destination row followed by the self loops. -/
def dstRows (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A row of node numbers with the negative ones moved up by the node count, as a column of index vectors. -/
def wrapIdx (r : (⟨S1700000, .i32⟩ : BufTy).Contents (Elt F)) : (⟨S1700000x1, .i32⟩ : BufTy).Contents (Elt F) :=
  broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)

/-- The reciprocal square root of each node's in-degree, self loop included. -/
def invSqrtDeg (e : (⟨S2x1600000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (wrapIdx (F := F) (dstRows (F := F) e)) (broadcastInDim S1700000 ![] bcast_S_S1700000 (constant S_ .f32 0x3F800000#32)))

/-- Per edge, the reciprocal square roots of the degrees of its two ends multiplied. -/
def edgeNorm (e : (⟨S2x1600000, .i32⟩ : BufTy).Contents (Elt F)) : (⟨S1700000, .f32⟩ : BufTy).Contents (Elt F) :=
  mulf (Host.gather gather_S100000_S1700000x1_S1700000_n_0_n_n_0_1_1 (invSqrtDeg e) (wrapIdx (F := F) (srcRows (F := F) e))) (Host.gather gather_S100000_S1700000x1_S1700000_n_0_n_n_0_1_1 (invSqrtDeg e) (wrapIdx (F := F) (dstRows (F := F) e)))

/-- The first convolution layer on a node-feature array `H`: gather at the sources, scale by the edge's factor, scatter-add
    into the destinations, add the bias. -/
def conv128 (H : (⟨S100000x128, .f32⟩ : BufTy).Contents (Elt F)) (e : (⟨S2x1600000, .i32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstRows (F := F) e)) (mulf (Host.gather gather_S100000x128_S1700000x1_S1700000x128_1_0_n_n_0_1_1128 H (wrapIdx (F := F) (srcRows (F := F) e))) (broadcastInDim S1700000x128 ![0, 1] bcast_S1700000x1_S1700000x128_0_1 (broadcastInDim S1700000x1 ![0] bcast_S1700000_S1700000x1_0 (edgeNorm e))))) (broadcastInDim S100000x128 ![0, 1] bcast_S1x128_S100000x128_0_1 (broadcastInDim S1x128 ![1] bcast_S128_S1x128_1 b))

/-- The maximum with zero between the two layers. -/
def relu128 (H : (⟨S100000x128, .f32⟩ : BufTy).Contents (Elt F)) : (⟨S100000x128, .f32⟩ : BufTy).Contents (Elt F) :=
  maximumf H (broadcastInDim S100000x128 ![] bcast_S_S100000x128 (constant S_ .f32 0x00000000#32))

/-- The second convolution layer, over 64 features. -/
def conv64 (H : (⟨S100000x64, .f32⟩ : BufTy).Contents (Elt F)) (e : (⟨S2x1600000, .i32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstRows (F := F) e)) (mulf (Host.gather gather_S100000x64_S1700000x1_S1700000x64_1_0_n_n_0_1_164 H (wrapIdx (F := F) (srcRows (F := F) e))) (broadcastInDim S1700000x64 ![0, 1] bcast_S1700000x1_S1700000x64_0_1 (broadcastInDim S1700000x1 ![0] bcast_S1700000_S1700000x1_0 (edgeNorm e))))) (broadcastInDim S100000x64 ![0, 1] bcast_S1x64_S100000x64_0_1 (broadcastInDim S1x64 ![1] bcast_S64_S1x64_1 b))

end Cert.Layers

end
-- ==== Proof.Prefix.lean ====
/-
  What the kernel program's first stretch of host operations leaves.

  Before the first matrix-product region the kernel program runs the same edge preparation as the reference — the two
  rows of the edge list with the self loops appended, the degree factors, the per-edge factor — and narrows the node
  features and the first weight matrix to the product's input format. Each buffer the later segments read is named
  here as a function of the launch contents of the arguments: the shared functions of `Layers`, and the narrowing.
-/
import proofs.«132681_j32744830665359_1_alg».proof.Proof.Gen.KernelIdeal.Frame
import proofs.«132681_j32744830665359_1_alg».proof.Proof.Layers
import Idealize.ShloMosaic.Lib.StableHlo.Run

set_option maxRecDepth 16384

noncomputable section

namespace Cert.KernelIdeal.Stages

open Cert.KernelIdeal Cert.KernelIdeal.Gen Cert.Layers
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The source row with the self loops. -/
theorem W1_src : W1 m ρ c (Proc.devRef .tc main_v3) = srcRows (F := F) (m ((c : Thread nD τ).loc main_arg1)) := by
  show StableHlo.after hostOps0 (W0 m ρ c) (Proc.devRef .tc main_v3) = _
  after_results_simp <;> rfl

/-- The destination row with the self loops. -/
theorem W1_dst : W1 m ρ c (Proc.devRef .tc main_v6) = dstRows (F := F) (m ((c : Thread nD τ).loc main_arg1)) := by
  show StableHlo.after hostOps0 (W0 m ρ c) (Proc.devRef .tc main_v6) = _
  after_results_simp <;> rfl

/-- The per-edge factor. -/
theorem W1_norm : W1 m ρ c (Proc.devRef .tc main_v31) = edgeNorm (F := F) (m ((c : Thread nD τ).loc main_arg1)) := by
  show StableHlo.after hostOps0 (W0 m ρ c) (Proc.devRef .tc main_v31) = _
  after_results_simp <;> rfl

/-- The node features, narrowed. -/
theorem W1_x : W1 m ρ c (Proc.devRef .tc main_v32) = truncf .bf16 (m ((c : Thread nD τ).loc main_arg0)) bitsLt_bf16_f32 := by
  show StableHlo.after hostOps0 (W0 m ρ c) (Proc.devRef .tc main_v32) = _
  after_results_simp <;> rfl

/-- The first weight matrix, narrowed. -/
theorem W1_w1 : W1 m ρ c (Proc.devRef .tc main_v33) = truncf .bf16 (m ((c : Thread nD τ).loc main_arg2)) bitsLt_bf16_f32 := by
  show StableHlo.after hostOps0 (W0 m ρ c) (Proc.devRef .tc main_v33) = _
  after_results_simp <;> rfl

/-- An argument array is still at its launch contents. -/
theorem W1_arg (b : Ref sig .tc) (hb : W1 m ρ c (Proc.devRef .tc b) = W0 m ρ c (Proc.devRef .tc b)) :
    W1 m ρ c (Proc.devRef .tc b) = m ((c : Thread nD τ).loc b) := hb.trans rfl

end Cert.KernelIdeal.Stages

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.Gemm0.lean ====
/-
  The first matrix-product region, from its blocks to the whole array.

  The region walks five grid points. At point `t` it stages rows `20000 t … 20000 t + 19999` of the left operand (a
  [100000, 128] array) and the whole right operand (a [128, 128] array), multiplies the two staged blocks into a zero
  accumulator and writes the [20000, 128] product back as rows `20000 t … 20000 t + 19999` of the result. Entry
  `(p, q)` of a block's product is the sum over `k` of the block's `(p, k)` times the right operand's `(k, q)`, which
  is entry `(20000 t + p, q)` of the product of the WHOLE operands; and the five row blocks cover the result. So after
  the region the result array is the whole product of the operand arrays as the region found them.
-/
import proofs.«132681_j32744830665359_1_alg».proof.Proof.Gen.KernelIdeal.Frame
import proofs.«132681_j32744830665359_1_alg».proof.Proof.LibPlainMatmul
import Idealize.ShloMosaic.Lib.Pipeline.Value
import Idealize.ShloMosaic.Lib.ValueIdx

set_option maxRecDepth 16384

noncomputable section

namespace Cert.KernelIdeal.Gemm0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The product of the whole operands: every row of the left array against the right array. -/
def whole (A : FVec Ideal S100000x128 .bf16) (B : FVec Ideal S128x128 .bf16) : FVec Ideal S100000x128 .f32 :=
  Host.dotGeneral (DotDims.plain 100000 128 128) none A B

/-- Its entry `(p, q)` is `∑ k, A (p, k) · B (k, q)`. -/
theorem whole_apply (A : FVec Ideal S100000x128 .bf16) (B : FVec Ideal S128x128 .bf16) (p : Fin 100000) (q : Fin 128) :
    whole A B (ix2 p q) = ∑ k : Fin 128, A (ix2 p k) * B (ix2 k q) :=
  LibPlainMatmul.dotGeneral_apply 100000 128 128 none A B p q

/-- One grid point's product of its two staged blocks, at entry `(p, q)`. -/
theorem pay_apply (x0 : Vec Ideal S20000x128 .bf16) (x1 : Vec Ideal S128x128 .bf16) (p : Fin 20000) (q : Fin 128) :
    k0_pay1 x0 x1 (ix2 p q) = ∑ k : Fin 128, x0 (ix2 p k) * x1 (ix2 k q) := by
  unfold k0_pay1
  simp only [shapeCast_self]
  exact LibPlainMatmul.matmul_zero_apply 20000 128 128 none x0 x1 p q

/-- A block's product is the whole product's rows from `r` on: when the left block holds rows `r, r + 1, …` of `A` and
    the right block is `B`, entry `y` of the block's product is the whole product's entry at row `r + y₀`, column `y₁`. -/
theorem block_entry (A : FVec Ideal S100000x128 .bf16) (B : FVec Ideal S128x128 .bf16)
    (x0 : Vec Ideal S20000x128 .bf16) (x1 : Vec Ideal S128x128 .bf16) (r : ℕ)
    (hx0 : ∀ (p : Fin 20000) (k : Fin 128) (i : S100000x128.Idx), (i 0).val = r + p.val → (i 1).val = k.val → x0 (ix2 p k) = A i)
    (hx1 : x1 = B)
    (y : S20000x128.Idx) (i : S100000x128.Idx) (hi0 : (i 0).val = r + (y 0).val) (hi1 : (i 1).val = (y 1).val) :
    k0_pay1 x0 x1 y = whole A B i := by
  obtain ⟨p, q, rfl⟩ : ∃ (p : Fin 20000) (q : Fin 128), y = ix2 p q := ⟨y 0, y 1, eq_ix2 y⟩
  have hp : r + p.val < 100000 := by have := idx2_lt0 i; have e : (i 0).val = r + p.val := hi0; omega
  obtain rfl : i = ix2 (⟨r + p.val, hp⟩ : Fin 100000) q := by
    funext a; apply Fin.ext
    match a with
    | ⟨0, _⟩ => exact hi0
    | ⟨1, _⟩ => exact hi1
  rw [pay_apply, whole_apply]
  refine Finset.sum_congr rfl fun k _ => ?_
  rw [hx0 p k (ix2 (⟨r + p.val, hp⟩ : Fin 100000) k) rfl rfl, hx1]

/-- The printed index maps over the grid: the left operand's and the result's row block is the point's number, every
    column block and the right operand's row block is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- What point `t` writes back is block `t` of the whole product of the operand arrays as the region found them. -/
theorem flushed_eq (c : Dev nD) (t : Fin cfg0.N) :
    (dat0 V c).flushed 2 t = ((cfg0.win 2).blk t).view.read (Elt Ideal) (whole (V c main_v32) (V c main_v33)) := by
  show (cfg0.win 2).cut (grid0.coords t) ((dat0 V c).after 2 t) = _
  rw [after0_2]
  unfold out0_2
  rw [View.canon_unit_zero hz]
  simp only [View.ld_unit_zero (S := S20000x128) hz, View.ld_unit_zero (S := S128x128) hz]
  obtain ⟨e00, e01, e10, e11, e20, e21, ht⟩ := idx_facts t
  funext y
  show k0_pay1 (iblk0 V c 0 t) (iblk0 V c 1 t) y = whole (V c main_v32) (V c main_v33) (((cfg0.win 2).blk t).view.emb y)
  refine block_entry (V c main_v32) (V c main_v33) (iblk0 V c 0 t) (iblk0 V c 1 t) (20000 * t.val) ?_ ?_ y _ ?_ ?_
  · -- the left block at point `t` holds rows `20000 t + p` of the left array
    intro p k i h0 h1
    show V c main_v32 (((cfg0.win 0).blk t).view.emb (ix2 p k)) = V c main_v32 i
    congr 1
    funext a
    apply Fin.ext
    match a with
    | ⟨0, _⟩ => show win0_0.index t (0 : Fin 2) * 20000 + 1 * p.val = (i 0).val; rw [e00, h0]; omega
    | ⟨1, _⟩ => show win0_0.index t (1 : Fin 2) * 128 + 1 * k.val = (i 1).val; rw [e01, h1]; omega
  · -- the right block is the whole right array at every point
    funext z
    show V c main_v33 (((cfg0.win 1).blk t).view.emb z) = V c main_v33 z
    congr 1
    funext a
    apply Fin.ext
    match a with
    | ⟨0, _⟩ => show win0_1.index t (0 : Fin 2) * 128 + 1 * (z 0).val = (z 0).val; rw [e10]; omega
    | ⟨1, _⟩ => show win0_1.index t (1 : Fin 2) * 128 + 1 * (z 1).val = (z 1).val; rw [e11]; omega
  · show win0_2.index t (0 : Fin 2) * 20000 + 1 * (y 0).val = 20000 * t.val + (y 0).val; rw [e20]; omega
  · show win0_2.index t (1 : Fin 2) * 128 + 1 * (y 1).val = (y 1).val; rw [e21]; omega

/-- Every row of the result lies in the block of the point `row / 20000`. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  obtain ⟨t, htv⟩ : ∃ t : Fin cfg0.N, t.val = (i 0).val / 20000 :=
    ⟨⟨(i 0).val / 20000, by rw [show cfg0.N = 5 from N_0]; omega⟩, rfl⟩
  obtain ⟨e00, e01, e10, e11, e20, e21, ht⟩ := idx_facts t
  refine ⟨t, flush0_2 t, ?_⟩
  show i ∈ ((View.whole main_v34).slice (win0_2.rect t)).set
  rw [View.set_slice_whole, Rect.mem_set_unit]
  intro a
  match a with
  | ⟨0, _⟩ =>
    show win0_2.index t (0 : Fin 2) * 20000 ≤ (i 0).val ∧ (i 0).val < win0_2.index t (0 : Fin 2) * 20000 + 20000
    rw [e20, htv]; omega
  | ⟨1, _⟩ =>
    show win0_2.index t (1 : Fin 2) * 128 ≤ (i 1).val ∧ (i 1).val < win0_2.index t (1 : Fin 2) * 128 + 128
    rw [e21]; omega

/-- After the region the result array is the whole product of the two operand arrays as the region found them. -/
theorem final (c : Dev nD) : (dat0 V c).arrAt 2 cfg0.N = whole (V c main_v32) (V c main_v33) :=
  (dat0 V c).arrAt_eq_of_cover 2 (whole (V c main_v32) (V c main_v33)) (fun t _ => flushed_eq V c t) (cover)

/-- Narrowing the operands to the product's input format first changes nothing over the extended reals, where a change
    of format is the identity: the whole product of the narrowed arrays is the host product of the arrays themselves. -/
theorem whole_truncf (x : FVec Ideal S100000x128 .f32) (w : FVec Ideal S128x128 .f32) :
    whole (truncf .bf16 x bitsLt_bf16_f32) (truncf .bf16 w bitsLt_bf16_f32)
      = Host.dotGeneral (DotDims.plain 100000 128 128) none x w := by
  funext i
  obtain ⟨p, q, rfl⟩ : ∃ (p : Fin 100000) (q : Fin 128), i = ix2 p q := ⟨i 0, i 1, eq_ix2 i⟩
  rw [whole_apply, LibPlainMatmul.dotGeneral_apply]
  rfl

end Cert.KernelIdeal.Gemm0

end
-- ==== Proof.Gemm1.lean ====
/-
  The second matrix-product region, from its blocks to the whole array.

  As in the first region, five grid points: point `t` stages rows `20000 t … 20000 t + 19999` of the left operand (a
  [100000, 128] array) and the whole right operand (here a [128, 64] array), multiplies the two staged blocks into a
  zero accumulator and writes the [20000, 64] product back as rows `20000 t … 20000 t + 19999` of the result. Entry
  `(p, q)` of a block's product is entry `(20000 t + p, q)` of the product of the WHOLE operands, and the five row
  blocks cover the result: after the region the result array is the whole product of the operand arrays as the region
  found them.
-/
import proofs.«132681_j32744830665359_1_alg».proof.Proof.Gen.KernelIdeal.Frame
import proofs.«132681_j32744830665359_1_alg».proof.Proof.LibPlainMatmul
import Idealize.ShloMosaic.Lib.Pipeline.Value
import Idealize.ShloMosaic.Lib.ValueIdx

set_option maxRecDepth 16384

noncomputable section

namespace Cert.KernelIdeal.Gemm1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The product of the whole operands: every row of the left array against the right array. -/
def whole (A : FVec Ideal S100000x128 .bf16) (B : FVec Ideal S128x64 .bf16) : FVec Ideal S100000x64 .f32 :=
  Host.dotGeneral (DotDims.plain 100000 128 64) none A B

/-- Its entry `(p, q)` is `∑ k, A (p, k) · B (k, q)`. -/
theorem whole_apply (A : FVec Ideal S100000x128 .bf16) (B : FVec Ideal S128x64 .bf16) (p : Fin 100000) (q : Fin 64) :
    whole A B (ix2 p q) = ∑ k : Fin 128, A (ix2 p k) * B (ix2 k q) :=
  LibPlainMatmul.dotGeneral_apply 100000 128 64 none A B p q

/-- One grid point's product of its two staged blocks, at entry `(p, q)`. -/
theorem pay_apply (x0 : Vec Ideal S20000x128 .bf16) (x1 : Vec Ideal S128x64 .bf16) (p : Fin 20000) (q : Fin 64) :
    k1_pay1 x0 x1 (ix2 p q) = ∑ k : Fin 128, x0 (ix2 p k) * x1 (ix2 k q) := by
  unfold k1_pay1
  simp only [shapeCast_self]
  exact LibPlainMatmul.matmul_zero_apply 20000 128 64 none x0 x1 p q

/-- A block's product is the whole product's rows from `r` on: when the left block holds rows `r, r + 1, …` of `A` and
    the right block is `B`, entry `y` of the block's product is the whole product's entry at row `r + y₀`, column `y₁`. -/
theorem block_entry (A : FVec Ideal S100000x128 .bf16) (B : FVec Ideal S128x64 .bf16)
    (x0 : Vec Ideal S20000x128 .bf16) (x1 : Vec Ideal S128x64 .bf16) (r : ℕ)
    (hx0 : ∀ (p : Fin 20000) (k : Fin 128) (i : S100000x128.Idx), (i 0).val = r + p.val → (i 1).val = k.val → x0 (ix2 p k) = A i)
    (hx1 : x1 = B)
    (y : S20000x64.Idx) (i : S100000x64.Idx) (hi0 : (i 0).val = r + (y 0).val) (hi1 : (i 1).val = (y 1).val) :
    k1_pay1 x0 x1 y = whole A B i := by
  obtain ⟨p, q, rfl⟩ : ∃ (p : Fin 20000) (q : Fin 64), y = ix2 p q := ⟨y 0, y 1, eq_ix2 y⟩
  have hp : r + p.val < 100000 := by have := idx2_lt0 i; have e : (i 0).val = r + p.val := hi0; omega
  obtain rfl : i = ix2 (⟨r + p.val, hp⟩ : Fin 100000) q := by
    funext a; apply Fin.ext
    match a with
    | ⟨0, _⟩ => exact hi0
    | ⟨1, _⟩ => exact hi1
  rw [pay_apply, whole_apply]
  refine Finset.sum_congr rfl fun k _ => ?_
  rw [hx0 p k (ix2 (⟨r + p.val, hp⟩ : Fin 100000) k) rfl rfl, hx1]

/-- The printed index maps over the grid: the left operand's and the result's row block is the point's number, every
    column block and the right operand's row block is 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 5 :=
  (by decide +kernel : ∀ t : Fin grid1.N, _)

/-- What point `t` writes back is block `t` of the whole product of the operand arrays as the region found them. -/
theorem flushed_eq (c : Dev nD) (t : Fin cfg1.N) :
    (dat1 V c).flushed 2 t = ((cfg1.win 2).blk t).view.read (Elt Ideal) (whole (V c main_v52) (V c main_v53)) := by
  show (cfg1.win 2).cut (grid1.coords t) ((dat1 V c).after 2 t) = _
  rw [after1_2]
  unfold out1_2
  rw [View.canon_unit_zero hz]
  simp only [View.ld_unit_zero (S := S20000x128) hz, View.ld_unit_zero (S := S128x64) hz]
  obtain ⟨e00, e01, e10, e11, e20, e21, ht⟩ := idx_facts t
  funext y
  show k1_pay1 (iblk1 V c 0 t) (iblk1 V c 1 t) y = whole (V c main_v52) (V c main_v53) (((cfg1.win 2).blk t).view.emb y)
  refine block_entry (V c main_v52) (V c main_v53) (iblk1 V c 0 t) (iblk1 V c 1 t) (20000 * t.val) ?_ ?_ y _ ?_ ?_
  · -- the left block at point `t` holds rows `20000 t + p` of the left array
    intro p k i h0 h1
    show V c main_v52 (((cfg1.win 0).blk t).view.emb (ix2 p k)) = V c main_v52 i
    congr 1
    funext a
    apply Fin.ext
    match a with
    | ⟨0, _⟩ => show win1_0.index t (0 : Fin 2) * 20000 + 1 * p.val = (i 0).val; rw [e00, h0]; omega
    | ⟨1, _⟩ => show win1_0.index t (1 : Fin 2) * 128 + 1 * k.val = (i 1).val; rw [e01, h1]; omega
  · -- the right block is the whole right array at every point
    funext z
    show V c main_v53 (((cfg1.win 1).blk t).view.emb z) = V c main_v53 z
    congr 1
    funext a
    apply Fin.ext
    match a with
    | ⟨0, _⟩ => show win1_1.index t (0 : Fin 2) * 128 + 1 * (z 0).val = (z 0).val; rw [e10]; omega
    | ⟨1, _⟩ => show win1_1.index t (1 : Fin 2) * 64 + 1 * (z 1).val = (z 1).val; rw [e11]; omega
  · show win1_2.index t (0 : Fin 2) * 20000 + 1 * (y 0).val = 20000 * t.val + (y 0).val; rw [e20]; omega
  · show win1_2.index t (1 : Fin 2) * 64 + 1 * (y 1).val = (y 1).val; rw [e21]; omega

/-- Every row of the result lies in the block of the point `row / 20000`. -/
theorem cover (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  obtain ⟨t, htv⟩ : ∃ t : Fin cfg1.N, t.val = (i 0).val / 20000 :=
    ⟨⟨(i 0).val / 20000, by rw [show cfg1.N = 5 from N_1]; omega⟩, rfl⟩
  obtain ⟨e00, e01, e10, e11, e20, e21, ht⟩ := idx_facts t
  refine ⟨t, flush1_2 t, ?_⟩
  show i ∈ ((View.whole main_v54).slice (win1_2.rect t)).set
  rw [View.set_slice_whole, Rect.mem_set_unit]
  intro a
  match a with
  | ⟨0, _⟩ =>
    show win1_2.index t (0 : Fin 2) * 20000 ≤ (i 0).val ∧ (i 0).val < win1_2.index t (0 : Fin 2) * 20000 + 20000
    rw [e20, htv]; omega
  | ⟨1, _⟩ =>
    show win1_2.index t (1 : Fin 2) * 64 ≤ (i 1).val ∧ (i 1).val < win1_2.index t (1 : Fin 2) * 64 + 64
    rw [e21]; omega

/-- After the region the result array is the whole product of the two operand arrays as the region found them. -/
theorem final (c : Dev nD) : (dat1 V c).arrAt 2 cfg1.N = whole (V c main_v52) (V c main_v53) :=
  (dat1 V c).arrAt_eq_of_cover 2 (whole (V c main_v52) (V c main_v53)) (fun t _ => flushed_eq V c t) (cover)

/-- Narrowing the operands to the product's input format first changes nothing over the extended reals, where a change
    of format is the identity: the whole product of the narrowed arrays is the host product of the arrays themselves. -/
theorem whole_truncf (x : FVec Ideal S100000x128 .f32) (w : FVec Ideal S128x64 .f32) :
    whole (truncf .bf16 x bitsLt_bf16_f32) (truncf .bf16 w bitsLt_bf16_f32)
      = Host.dotGeneral (DotDims.plain 100000 128 64) none x w := by
  funext i
  obtain ⟨p, q, rfl⟩ : ∃ (p : Fin 100000) (q : Fin 64), i = ix2 p q := ⟨i 0, i 1, eq_ix2 i⟩
  rw [whole_apply, LibPlainMatmul.dotGeneral_apply]
  rfl

end Cert.KernelIdeal.Gemm1

end
-- ==== Proof.RefValue.lean ====
/-
  The reference's result as a composition of the shared host functions.

  The reference computes the edge factors, then `x · W1` as one host product, the first convolution layer, the maximum
  with zero, `· W2` as one host product, and the second convolution layer. Its run's composed term of the argument
  arrays is exactly that composition of `Layers`' functions around the two host products.
-/
import proofs.«132681_j32744830665359_1_alg».proof.Proof.Layers
import proofs.«132681_j32744830665359_1_alg».proof.Proof.Gen.ReferenceIdeal.Run

set_option maxRecDepth 16384

noncomputable section

namespace Cert.ReferenceIdeal.RefValue

open Cert.ReferenceIdeal Cert.ReferenceIdeal.Gen Cert.Layers
open Idealize.ShloMosaic Idealize.ShloMosaic.TcCoe Idealize.SL.Sem

variable {F : FTy → Type} [FloatOps F]

/-- The reference's two layers around its two host products, as one function of the six argument arrays. -/
def twoLayers (x : (⟨S100000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S100000x64, .f32⟩ : BufTy).Contents (Elt F) :=
  conv64 (Host.dotGeneral dot_S100000x128_S128x64_S100000x64_1_0_0_1_n_n none
      (relu128 (conv128 (Host.dotGeneral dot_S100000x128_S128x128_S100000x128_1_0_0_1_n_n none x w1) e b1)) w2) e b2

/-- The run's composed term is that function of the launch contents of the arguments. -/
theorem res_eq (m : (ℓ : Loc nD τ sig) → Buf (Elt F) ℓ) (c : Dev nD) :
    Cert.ReferenceIdeal.Value.res_main_v66 m c
      = twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v66 twoLayers conv64 relu128 conv128 edgeNorm invSqrtDeg wrapIdx srcRows dstRows
  rfl

end Cert.ReferenceIdeal.RefValue

end
-- ==== Proof.KernelValue.lean ====
/-
  The kernel program's result, as the reference's function of the arguments.

  The last segment boundary's contents at the result buffer, walked back through the segments over the extended reals:
    * the last stretch applies the second convolution layer to the second region's result array;
    * the second region leaves the whole product of its two operand arrays (`Gemm1.final`), which the stretch before it
      made by narrowing the rectified first layer and the second weight matrix;
    * the stretches between the regions apply the first convolution layer and the maximum with zero to the first region's
      result array, which is the whole product of the narrowed node features and first weight matrix (`Gemm0.final`);
    * the edge rows and the per-edge factor were written by the first stretch and nothing later writes them.
  Narrowing is the identity over the extended reals, so each whole product is the host product of the un-narrowed arrays,
  and the composition is the reference's.
-/
import proofs.«132681_j32744830665359_1_alg».proof.Proof.Prefix
import proofs.«132681_j32744830665359_1_alg».proof.Proof.Gemm0
import proofs.«132681_j32744830665359_1_alg».proof.Proof.Gemm1
import proofs.«132681_j32744830665359_1_alg».proof.Proof.RefValue

set_option maxRecDepth 16384

noncomputable section

namespace Cert.KernelIdeal.Stages

open Cert.KernelIdeal Cert.KernelIdeal.Gen Cert.Layers
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Buffers no later segment writes -/

/-- The stretches between the regions write none of the edge buffers or the later arguments. -/
theorem mid_kept (b : Ref sig .tc)
    (h : StableHlo.after hostOps1_2 (StableHlo.after hostOps1_1 (StableHlo.after hostOps1 (W2 m ρ c))) (Proc.devRef .tc b) = W2 m ρ c (Proc.devRef .tc b)) :
    W5 m ρ c (Proc.devRef .tc b) = W2 m ρ c (Proc.devRef .tc b) := h

theorem W2_src : W2 m ρ c (Proc.devRef .tc main_v3) = srcRows (F := Ideal) (m ((c : Thread nD τ).loc main_arg1)) :=
  (W2_of_ne m ρ c main_v3 (by decide)).trans (W1_src m ρ c)
theorem W2_dst : W2 m ρ c (Proc.devRef .tc main_v6) = dstRows (F := Ideal) (m ((c : Thread nD τ).loc main_arg1)) :=
  (W2_of_ne m ρ c main_v6 (by decide)).trans (W1_dst m ρ c)
theorem W2_norm : W2 m ρ c (Proc.devRef .tc main_v31) = edgeNorm (F := Ideal) (m ((c : Thread nD τ).loc main_arg1)) :=
  (W2_of_ne m ρ c main_v31 (by decide)).trans (W1_norm m ρ c)
theorem W2_b1 : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results_simp <;> rfl)
theorem W2_w2 : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)
theorem W2_b2 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

theorem W6_src : W6 m ρ c (Proc.devRef .tc main_v3) = srcRows (F := Ideal) (m ((c : Thread nD τ).loc main_arg1)) :=
  (W6_of_ne m ρ c main_v3 (by decide)).trans ((mid_kept m ρ c main_v3 (by after_results_simp)).trans (W2_src m ρ c))
theorem W6_dst : W6 m ρ c (Proc.devRef .tc main_v6) = dstRows (F := Ideal) (m ((c : Thread nD τ).loc main_arg1)) :=
  (W6_of_ne m ρ c main_v6 (by decide)).trans ((mid_kept m ρ c main_v6 (by after_results_simp)).trans (W2_dst m ρ c))
theorem W6_norm : W6 m ρ c (Proc.devRef .tc main_v31) = edgeNorm (F := Ideal) (m ((c : Thread nD τ).loc main_arg1)) :=
  (W6_of_ne m ρ c main_v31 (by decide)).trans ((mid_kept m ρ c main_v31 (by after_results_simp)).trans (W2_norm m ρ c))
theorem W6_b2 : W6 m ρ c (Proc.devRef .tc main_arg5) = (m ((c : Thread nD τ).loc main_arg5)) :=
  (W6_of_ne m ρ c main_arg5 (by decide)).trans ((mid_kept m ρ c main_arg5 (by after_results_simp)).trans (W2_b2 m ρ c))

/-! ## The first region and the first layer -/

/-- The first region's result array: the whole product of the narrowed node features and first weight matrix. -/
theorem W2_h : W2 m ρ c (Proc.devRef .tc main_v34)
    = Gemm0.whole (truncf .bf16 (m ((c : Thread nD τ).loc main_arg0)) bitsLt_bf16_f32) (truncf .bf16 (m ((c : Thread nD τ).loc main_arg2)) bitsLt_bf16_f32) := by
  refine (W2_arr m ρ c 2).trans ?_
  rw [Gemm0.final (V1 m ρ) c]
  show Gemm0.whole (W1 m ρ c (Proc.devRef .tc main_v32)) (W1 m ρ c (Proc.devRef .tc main_v33)) = _
  rw [W1_x, W1_w1]

/-- The first layer of the first region's result array `H`. -/
theorem W3_h (H : (⟨S100000x128, .f32⟩ : BufTy).Contents (Elt Ideal)) (hH : W2 m ρ c (Proc.devRef .tc main_v34) = H) :
    W3 m ρ c (Proc.devRef .tc main_v50) = conv128 H (m ((c : Thread nD τ).loc main_arg1)) (m ((c : Thread nD τ).loc main_arg3)) := by
  show StableHlo.after hostOps1 (W2 m ρ c) (Proc.devRef .tc main_v50) = _
  after_results_simp
  rw [W2_src, W2_dst, W2_norm, W2_b1, hH]
  rfl

/-- The maximum with zero of what the first layer left. -/
theorem W4_h (X : (⟨S100000x128, .f32⟩ : BufTy).Contents (Elt Ideal)) (hX : W3 m ρ c (Proc.devRef .tc main_v50) = X) :
    W4 m ρ c (Proc.devRef .tc main_v51) = relu128 X := by
  subst hX
  show StableHlo.after hostOps1_1 (W3 m ρ c) (Proc.devRef .tc main_v51) = relu128 (W3 m ρ c (Proc.devRef .tc main_v50))
  generalize W3 m ρ c = V3
  after_results_simp <;> rfl

/-- The second region's left operand: that array narrowed. -/
theorem W5_h (Y : (⟨S100000x128, .f32⟩ : BufTy).Contents (Elt Ideal)) (hY : W4 m ρ c (Proc.devRef .tc main_v51) = Y) :
    W5 m ρ c (Proc.devRef .tc main_v52) = (truncf .bf16 (Y : FVec Ideal S100000x128 .f32) bitsLt_bf16_f32 : FVec Ideal S100000x128 .bf16) := by
  subst hY
  show StableHlo.after hostOps1_2 (W4 m ρ c) (Proc.devRef .tc main_v52)
    = (truncf .bf16 (W4 m ρ c (Proc.devRef .tc main_v51) : FVec Ideal S100000x128 .f32) bitsLt_bf16_f32 : FVec Ideal S100000x128 .bf16)
  generalize W4 m ρ c = V4
  after_results_simp <;> rfl

/-- The second region's right operand: the second weight matrix, narrowed. -/
theorem W5_w2 : W5 m ρ c (Proc.devRef .tc main_v53)
    = (truncf .bf16 ((m ((c : Thread nD τ).loc main_arg4)) : FVec Ideal S128x64 .f32) bitsLt_bf16_f32 : FVec Ideal S128x64 .bf16) := by
  show StableHlo.after hostOps1_2 (StableHlo.after hostOps1_1 (StableHlo.after hostOps1 (W2 m ρ c))) (Proc.devRef .tc main_v53) = _
  after_results_simp
  rw [W2_w2]

/-! ## The second region and the second layer -/

/-- The second region's result array is the whole product of its operand arrays as entered. -/
theorem W6_h : W6 m ρ c (Proc.devRef .tc main_v54)
    = Gemm1.whole (W5 m ρ c (Proc.devRef .tc main_v52)) (W5 m ρ c (Proc.devRef .tc main_v53)) := by
  refine (W6_arr m ρ c 2).trans ?_
  rw [Gemm1.final (V5 m ρ) c]

/-- The result buffer: the second layer of the second region's result array. -/
theorem W7_out (H : (⟨S100000x64, .f32⟩ : BufTy).Contents (Elt Ideal)) (hH : W6 m ρ c (Proc.devRef .tc main_v54) = H) :
    W7 m ρ c (Proc.devRef .tc main_v70) = conv64 H (m ((c : Thread nD τ).loc main_arg1)) (m ((c : Thread nD τ).loc main_arg5)) := by
  show StableHlo.after hostOps2 (W6 m ρ c) (Proc.devRef .tc main_v70) = _
  after_results_simp
  rw [W6_src, W6_dst, W6_norm, W6_b2, hH]
  rfl

/-! ## The result -/

/-- The result buffer ends at the reference's function of the launch contents of the six arguments. -/
theorem result_eq : W7 m ρ c (Proc.devRef .tc main_v70)
    = Cert.ReferenceIdeal.RefValue.twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W7_out m ρ c _ (W6_h m ρ c), W5_w2, W5_h m ρ c _ (W4_h m ρ c _ (W3_h m ρ c _ (W2_h m ρ c))), Gemm1.whole_truncf, Gemm0.whole_truncf]
  rfl

end Cert.KernelIdeal.Stages

end
-- ==== Proof.lean ====
/-
  A two-layer graph convolution whose two dense products run as tiled matrix-product regions, against the same
  network with the products as single host operations.

  Both programs prepare the edges identically (the edge list with self loops, the reciprocal square roots of the
  in-degrees, a factor per edge) and apply the same two layers: gather the rows of `H` at the edges' sources, scale
  them by the edge factors, scatter-add them into the destinations, add the bias; a maximum with zero in between. They
  differ only in how `H = X · W` is produced. The kernel program narrows `X` and `W` to the product's input format
  and multiplies them in five row blocks of 20000 rows, each into a zero accumulator; the reference multiplies the
  arrays as they are. Over the extended reals a change of float format is the identity and a block's product is the
  corresponding rows of the whole product, so both programs compute one function of the six arguments
  (`RefValue.twoLayers`). No algebraic law beyond that is used, so the precondition is never opened.

  `frame_Kernel` and `frame_KernelIdeal` are the generated frame certificates; `frame_ReferenceIdeal` is the
  reference's generated run with the result dropped; `preserves` has no entry; `algebraic` puts the kernel program's
  run read at its result buffer (`KernelRun`, `KernelValue`) beside the reference's run (`RefValue`).
-/
import proofs.«132681_j32744830665359_1_alg».proof.Defs
import proofs.«132681_j32744830665359_1_alg».proof.Proof.Gen.Kernel
import proofs.«132681_j32744830665359_1_alg».proof.Proof.Gen.Kernel.Skeleton
import proofs.«132681_j32744830665359_1_alg».proof.Proof.Gen.Kernel.Launch
import proofs.«132681_j32744830665359_1_alg».proof.Proof.Gen.Kernel.Points
import proofs.«132681_j32744830665359_1_alg».proof.Proof.Gen.Kernel.Frame
import proofs.«132681_j32744830665359_1_alg».proof.Proof.Gen.KernelIdeal
import proofs.«132681_j32744830665359_1_alg».proof.Proof.Gen.KernelIdeal.Skeleton
import proofs.«132681_j32744830665359_1_alg».proof.Proof.Gen.KernelIdeal.Launch
import proofs.«132681_j32744830665359_1_alg».proof.Proof.Gen.KernelIdeal.Points
import proofs.«132681_j32744830665359_1_alg».proof.Proof.Gen.KernelIdeal.Frame
import proofs.«132681_j32744830665359_1_alg».proof.Proof.Gen.ReferenceIdeal
import proofs.«132681_j32744830665359_1_alg».proof.Proof.Gen.ReferenceIdeal.Run
import proofs.«132681_j32744830665359_1_alg».proof.Proof.Gen.Pre_finite_inputs
import proofs.«132681_j32744830665359_1_alg».proof.Proof.KernelRun
import proofs.«132681_j32744830665359_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section KernelSide

open Cert.KernelIdeal Cert.KernelIdeal.Gen

/-- The idealized kernel program runs, ends with its result buffer at the last segment boundary's contents and with
    its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v70 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩)
    (Cert.KernelIdeal.Hand.run_buffers (F := Ideal) m ρ)

end KernelSide

/-- Over the extended reals the kernel program's result buffer ends at the reference's function of its arguments
    (`KernelValue.result_eq`) and the reference's at the same function of its own (`RefValue.res_eq`); the arguments
    agree. -/
theorem algebraic : Cert.algebraic_KernelIdeal_ReferenceIdeal := by
  intro m ρ m' ρ' _ hagree
  refine ⟨fun c => Cert.KernelIdeal.Gen.W7 m ρ c (Proc.devRef .tc Cert.KernelIdeal.main_v70), kernel_run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v66 m' c = Cert.KernelIdeal.Gen.W7 m ρ c (Proc.devRef .tc Cert.KernelIdeal.main_v70)
  obtain ⟨a0, a1, a2, a3, a4, a5⟩ := hagree c
  rw [Cert.ReferenceIdeal.RefValue.res_eq, Cert.KernelIdeal.Stages.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
